-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x28x28 : Shape := ⟨3, ![65536, 28, 28]⟩
abbrev S28x28x2 : Shape := ⟨3, ![28, 28, 2]⟩
abbrev S28x28 : Shape := ⟨2, ![28, 28]⟩
abbrev S_ : Shape := ⟨0, ![]⟩

class Facts : Prop where
  bcast_S_S65536x28x28 : S_.BroadcastsInDim S65536x28x28 (![] : Fin 0 → Fin S65536x28x28.rank)
  reducesTo_S65536x28x28_S_d0_1_2 : S65536x28x28.ReducesTo [0, 1, 2] S_
  h_S_ : 0 < S_.numel
  bcast_S_S28x28x2 : S_.BroadcastsInDim S28x28x2 (![] : Fin 0 → Fin S28x28x2.rank)
  reducesTo_S28x28x2_S_d0_1_2 : S28x28x2.ReducesTo [0, 1, 2] S_
  bcast_S_S28x28 : S_.BroadcastsInDim S28x28 (![] : Fin 0 → Fin S28x28.rank)
  reducesTo_S28x28_S_d0_1 : S28x28.ReducesTo [0, 1] S_

variable [Facts]

def fn_part1 {F : FTy → Type} [FloatOps F] (main_v13 : IVec S_ 1) (main_v16 : IVec S28x28 1) : IVec S_ 1 :=
  let main_c_5 : IVec S_ 1 := constantI S_ 1 1#1
  let main_v17 : IVec S_ 1 := (fun x v => Host.reduce IntOp.andi x v reducesTo_S28x28_S_d0_1 h_S_) main_v16 main_c_5
  let main_v18 : IVec S_ 1 := andi main_v13 main_v17
  main_v18

def fn {F : FTy → Type} [FloatOps F] (main_arg0 : FVec F S65536x28x28 .f32) (main_arg1 : FVec F S28x28x2 .f32) (main_arg2 : FVec F S28x28 .f32) (main_arg3 : FVec F S28x28 .f32) : IVec S_ 1 :=
  let main_v0 : FVec F S65536x28x28 .f32 := Host.absf main_arg0
  let main_cst : FVec F S_ .f32 := constant S_ .f32 0x7F800000#32
  let main_v1 : FVec F S65536x28x28 .f32 := broadcastInDim S65536x28x28 ![] bcast_S_S65536x28x28 main_cst
  let main_v2 : IVec S65536x28x28 1 := cmpf .olt main_v0 main_v1
  let main_c : IVec S_ 1 := constantI S_ 1 1#1
  let main_v3 : IVec S_ 1 := (fun x v => Host.reduce IntOp.andi x v reducesTo_S65536x28x28_S_d0_1_2 h_S_) main_v2 main_c
  let main_v4 : FVec F S28x28x2 .f32 := Host.absf main_arg1
  let main_cst_0 : FVec F S_ .f32 := constant S_ .f32 0x7F800000#32
  let main_v5 : FVec F S28x28x2 .f32 := broadcastInDim S28x28x2 ![] bcast_S_S28x28x2 main_cst_0
  let main_v6 : IVec S28x28x2 1 := cmpf .olt main_v4 main_v5
  let main_c_1 : IVec S_ 1 := constantI S_ 1 1#1
  let main_v7 : IVec S_ 1 := (fun x v => Host.reduce IntOp.andi x v reducesTo_S28x28x2_S_d0_1_2 h_S_) main_v6 main_c_1
  let main_v8 : IVec S_ 1 := andi main_v3 main_v7
  let main_v9 : FVec F S28x28 .f32 := Host.absf main_arg2
  let main_cst_2 : FVec F S_ .f32 := constant S_ .f32 0x7F800000#32
  let main_v10 : FVec F S28x28 .f32 := broadcastInDim S28x28 ![] bcast_S_S28x28 main_cst_2
  let main_v11 : IVec S28x28 1 := cmpf .olt main_v9 main_v10
  let main_c_3 : IVec S_ 1 := constantI S_ 1 1#1
  let main_v12 : IVec S_ 1 := (fun x v => Host.reduce IntOp.andi x v reducesTo_S28x28_S_d0_1 h_S_) main_v11 main_c_3
  let main_v13 : IVec S_ 1 := andi main_v8 main_v12
  let main_v14 : FVec F S28x28 .f32 := Host.absf main_arg3
  let main_cst_4 : FVec F S_ .f32 := constant S_ .f32 0x7F800000#32
  let main_v15 : FVec F S28x28 .f32 := broadcastInDim S28x28 ![] bcast_S_S28x28 main_cst_4
  let main_v16 : IVec S28x28 1 := cmpf .olt main_v14 main_v15
  fn_part1 (F := F) main_v13 main_v16
-- ==== Kernel.lean ====
abbrev S65536x28x28 : Shape := ⟨3, ![65536, 28, 28]⟩
abbrev S28x28x2 : Shape := ⟨3, ![28, 28, 2]⟩
abbrev S28x28 : Shape := ⟨2, ![28, 28]⟩
abbrev S28 : Shape := ⟨1, ![28]⟩
abbrev S28x28x1 : Shape := ⟨3, ![28, 28, 1]⟩
abbrev S28x28x1x1x2 : Shape := ⟨5, ![28, 28, 1, 1, 2]⟩
abbrev S1x1x28x28x2 : Shape := ⟨5, ![1, 1, 28, 28, 2]⟩
abbrev S28x28x28x28x2 : Shape := ⟨5, ![28, 28, 28, 28, 2]⟩
abbrev S_ : Shape := ⟨0, ![]⟩
abbrev S28x28x28x28 : Shape := ⟨4, ![28, 28, 28, 28]⟩
abbrev S1x1x28x28 : Shape := ⟨4, ![1, 1, 28, 28]⟩
abbrev S784x784 : Shape := ⟨2, ![784, 784]⟩
abbrev S1x784 : Shape := ⟨2, ![1, 784]⟩
abbrev S65536x784 : Shape := ⟨2, ![65536, 784]⟩
abbrev S2048x784 : Shape := ⟨2, ![2048, 784]⟩

abbrev nBuf : Space → Nat
  | .hbm => 41
  | .vmem => 6
  | .smem => 0
  | _ => 0

abbrev bufTy : (tb : Table) → Fin (tcTables nBuf tb) → BufTy
  | .hbm, ⟨0, _⟩ => ⟨S65536x28x28, .f32⟩
  | .hbm, ⟨1, _⟩ => ⟨S28x28x2, .f32⟩
  | .hbm, ⟨2, _⟩ => ⟨S28x28, .f32⟩
  | .hbm, ⟨3, _⟩ => ⟨S28x28, .f32⟩
  | .hbm, ⟨4, _⟩ => ⟨S28, .i32⟩
  | .hbm, ⟨5, _⟩ => ⟨S28, .i32⟩
  | .hbm, ⟨6, _⟩ => ⟨S28x28, .i32⟩
  | .hbm, ⟨7, _⟩ => ⟨S28x28, .i32⟩
  | .hbm, ⟨8, _⟩ => ⟨S28x28x1, .i32⟩
  | .hbm, ⟨9, _⟩ => ⟨S28x28x1, .i32⟩
  | .hbm, ⟨10, _⟩ => ⟨S28x28x2, .i32⟩
  | .hbm, ⟨11, _⟩ => ⟨S28x28x2, .f32⟩
  | .hbm, ⟨12, _⟩ => ⟨S28x28x1x1x2, .f32⟩
  | .hbm, ⟨13, _⟩ => ⟨S1x1x28x28x2, .f32⟩
  | .hbm, ⟨14, _⟩ => ⟨S28x28x28x28x2, .f32⟩
  | .hbm, ⟨15, _⟩ => ⟨S28x28x28x28x2, .f32⟩
  | .hbm, ⟨16, _⟩ => ⟨S28x28x28x28x2, .f32⟩
  | .hbm, ⟨17, _⟩ => ⟨S28x28x28x28x2, .f32⟩
  | .hbm, ⟨18, _⟩ => ⟨S_, .f32⟩
  | .hbm, ⟨19, _⟩ => ⟨S28x28x28x28, .f32⟩
  | .hbm, ⟨20, _⟩ => ⟨S_, .f32⟩
  | .hbm, ⟨21, _⟩ => ⟨S28x28x28x28, .f32⟩
  | .hbm, ⟨22, _⟩ => ⟨S28x28x28x28, .i1⟩
  | .hbm, ⟨23, _⟩ => ⟨S28x28x28x28, .f32⟩
  | .hbm, ⟨24, _⟩ => ⟨S28x28, .f32⟩
  | .hbm, ⟨25, _⟩ => ⟨S_, .f32⟩
  | .hbm, ⟨26, _⟩ => ⟨S28x28, .f32⟩
  | .hbm, ⟨27, _⟩ => ⟨S28x28, .f32⟩
  | .hbm, ⟨28, _⟩ => ⟨S28x28, .f32⟩
  | .hbm, ⟨29, _⟩ => ⟨S1x1x28x28, .f32⟩
  | .hbm, ⟨30, _⟩ => ⟨S28x28x28x28, .f32⟩
  | .hbm, ⟨31, _⟩ => ⟨S28x28x28x28, .f32⟩
  | .hbm, ⟨32, _⟩ => ⟨S28x28x28x28, .f32⟩
  | .hbm, ⟨33, _⟩ => ⟨S28x28x28x28, .f32⟩
  | .hbm, ⟨34, _⟩ => ⟨S784x784, .f32⟩
  | .hbm, ⟨35, _⟩ => ⟨S784x784, .f32⟩
  | .hbm, ⟨36, _⟩ => ⟨S784x784, .bf16⟩
  | .hbm, ⟨37, _⟩ => ⟨S1x784, .f32⟩
  | .hbm, ⟨38, _⟩ => ⟨S65536x784, .f32⟩
  | .hbm, ⟨39, _⟩ => ⟨S65536x784, .f32⟩
  | .hbm, ⟨40, _⟩ => ⟨S65536x28x28, .f32⟩
  | .local _ .vmem, ⟨0, _⟩ => ⟨S2048x784, .f32⟩
  | .local _ .vmem, ⟨1, _⟩ => ⟨S2048x784, .f32⟩
  | .local _ .vmem, ⟨2, _⟩ => ⟨S784x784, .bf16⟩
  | .local _ .vmem, ⟨3, _⟩ => ⟨S1x784, .f32⟩
  | .local _ .vmem, ⟨4, _⟩ => ⟨S2048x784, .f32⟩
  | .local _ .vmem, ⟨5, _⟩ => ⟨S2048x784, .f32⟩
  | _, _ => ⟨S65536x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x784 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S28_S28x28_0 : S28.BroadcastsInDim S28x28 (![0] : Fin 1 → Fin S28x28.rank)
  bcast_S28_S28x28_1 : S28.BroadcastsInDim S28x28 (![1] : Fin 1 → Fin S28x28.rank)
  bcast_S28x28_S28x28x1_0_1 : S28x28.BroadcastsInDim S28x28x1 (![0, 1] : Fin 2 → Fin S28x28x1.rank)
  concatenates_S28x28x1_S28x28x1_S28x28x2_d2 : Shape.Concatenates [S28x28x1, S28x28x1] S28x28x2 2
  bcast_S28x28x2_S28x28x1x1x2_0_1_4 : S28x28x2.BroadcastsInDim S28x28x1x1x2 (![0, 1, 4] : Fin 3 → Fin S28x28x1x1x2.rank)
  bcast_S28x28x2_S1x1x28x28x2_2_3_4 : S28x28x2.BroadcastsInDim S1x1x28x28x2 (![2, 3, 4] : Fin 3 → Fin S1x1x28x28x2.rank)
  bcast_S28x28x1x1x2_S28x28x28x28x2_0_1_2_3_4 : S28x28x1x1x2.BroadcastsInDim S28x28x28x28x2 (![0, 1, 2, 3, 4] : Fin 5 → Fin S28x28x28x28x2.rank)
  bcast_S1x1x28x28x2_S28x28x28x28x2_0_1_2_3_4 : S1x1x28x28x2.BroadcastsInDim S28x28x28x28x2 (![0, 1, 2, 3, 4] : Fin 5 → Fin S28x28x28x28x2.rank)
  reducesTo_S28x28x28x28x2_S28x28x28x28_d4 : S28x28x28x28x2.ReducesTo [4] S28x28x28x28
  h_S_ : 0 < S_.numel
  bcast_S_S28x28x28x28 : S_.BroadcastsInDim S28x28x28x28 (![] : Fin 0 → Fin S28x28x28x28.rank)
  bcast_S_S28x28 : S_.BroadcastsInDim S28x28 (![] : Fin 0 → Fin S28x28.rank)
  bcast_S28x28_S1x1x28x28_2_3 : S28x28.BroadcastsInDim S1x1x28x28 (![2, 3] : Fin 2 → Fin S1x1x28x28.rank)
  bcast_S1x1x28x28_S28x28x28x28_0_1_2_3 : S1x1x28x28.BroadcastsInDim S28x28x28x28 (![0, 1, 2, 3] : Fin 4 → Fin S28x28x28x28.rank)
  shapeCasts_S28x28x28x28_S784x784 : S28x28x28x28.ShapeCasts S784x784
  transposes_S784x784_S784x784_1_0 : S784x784.Transposes [1, 0] S784x784
  bitsLt_bf16_f32 : FTy.bits .bf16 < FTy.bits .f32
  shapeCasts_S28x28_S1x784 : S28x28.ShapeCasts S1x784
  shapeCasts_S65536x28x28_S65536x784 : S65536x28x28.ShapeCasts S65536x784
  inb_S2048x784_S2048x784_0_0 : ∀ a, (![0, 0] : Fin 2 → Nat) a + S2048x784.size a ≤ S2048x784.size a
  h_S2048x784 : 0 < S2048x784.numel
  shapeCasts_S2048x784_S2048x784 : S2048x784.ShapeCasts S2048x784
  inb_S784x784_S784x784_0_0 : ∀ a, (![0, 0] : Fin 2 → Nat) a + S784x784.size a ≤ S784x784.size a
  h_S784x784 : 0 < S784x784.numel
  shapeCasts_S784x784_S784x784 : S784x784.ShapeCasts S784x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S2048x784 : S1x784.Broadcasts S2048x784
  shapeCasts_S65536x784_S65536x28x28 : S65536x784.ShapeCasts S65536x28x28
  dot_S2048x784_S784x784_S2048x784_1_0_0_1_n_n_wf : DotDims.WF S2048x784 S784x784 S2048x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x784.size a ≤ S784x784.size a
  hwx0_1 : ∀ i : grid0.Coords, EltTy.bits .bf16 = 32 ∨ (Rect.block (s := S784x784) S784x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x784.size a ≤ S1x784.size a
  hwx0_2 : ∀ i : grid0.Coords, EltTy.bits .f32 = 32 ∨ (Rect.block (s := S1x784) S1x784.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x784.size a ≤ S65536x784.size a
  hwx0_3 : ∀ i : grid0.Coords, EltTy.bits .f32 = 32 ∨ (Rect.block (s := S65536x784) S2048x784.size (cc0_transform_3 i) (hinb0_3 i)).WholeWords (EltTy.packing .f32)

variable [Facts₀]

def dot_S2048x784_S784x784_S2048x784_1_0_0_1_n_n : DotDims S2048x784 S784x784 S2048x784 where
  lhsContracting := [1]
  rhsContracting := [0]
  lhsNonContracting := [0]
  rhsNonContracting := [1]
  lhsBatch := []
  rhsBatch := []
  wf := dot_S2048x784_S784x784_S2048x784_1_0_0_1_n_n_wf

abbrev win0_0 : Pipeline.Window sig grid0 :=
  Pipeline.Window.ofSpec (Memref.whole main_v30) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S784x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x784.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2048x784.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x28x28 : Shape := ⟨3, ![65536, 28, 28]⟩
abbrev S28x28x2 : Shape := ⟨3, ![28, 28, 2]⟩
abbrev S28x28 : Shape := ⟨2, ![28, 28]⟩
abbrev S28 : Shape := ⟨1, ![28]⟩
abbrev S28x28x1 : Shape := ⟨3, ![28, 28, 1]⟩
abbrev S28x28x1x1x2 : Shape := ⟨5, ![28, 28, 1, 1, 2]⟩
abbrev S1x1x28x28x2 : Shape := ⟨5, ![1, 1, 28, 28, 2]⟩
abbrev S28x28x28x28x2 : Shape := ⟨5, ![28, 28, 28, 28, 2]⟩
abbrev S_ : Shape := ⟨0, ![]⟩
abbrev S28x28x28x28 : Shape := ⟨4, ![28, 28, 28, 28]⟩
abbrev S1x1x28x28 : Shape := ⟨4, ![1, 1, 28, 28]⟩
abbrev S784x784 : Shape := ⟨2, ![784, 784]⟩
abbrev S65536x784 : Shape := ⟨2, ![65536, 784]⟩
abbrev S1x28x28 : Shape := ⟨3, ![1, 28, 28]⟩

abbrev nBuf : Space → Nat
  | .hbm => 42
  | .vmem => 0
  | .smem => 0
  | _ => 0

abbrev bufTy : (tb : Table) → Fin (tcTables nBuf tb) → BufTy
  | .hbm, ⟨0, _⟩ => ⟨S65536x28x28, .f32⟩
  | .hbm, ⟨1, _⟩ => ⟨S28x28x2, .f32⟩
  | .hbm, ⟨2, _⟩ => ⟨S28x28, .f32⟩
  | .hbm, ⟨3, _⟩ => ⟨S28x28, .f32⟩
  | .hbm, ⟨4, _⟩ => ⟨S28, .i32⟩
  | .hbm, ⟨5, _⟩ => ⟨S28, .i32⟩
  | .hbm, ⟨6, _⟩ => ⟨S28x28, .i32⟩
  | .hbm, ⟨7, _⟩ => ⟨S28x28, .i32⟩
  | .hbm, ⟨8, _⟩ => ⟨S28x28x1, .i32⟩
  | .hbm, ⟨9, _⟩ => ⟨S28x28x1, .i32⟩
  | .hbm, ⟨10, _⟩ => ⟨S28x28x2, .i32⟩
  | .hbm, ⟨11, _⟩ => ⟨S28x28x2, .f32⟩
  | .hbm, ⟨12, _⟩ => ⟨S28x28x1x1x2, .f32⟩
  | .hbm, ⟨13, _⟩ => ⟨S1x1x28x28x2, .f32⟩
  | .hbm, ⟨14, _⟩ => ⟨S28x28x28x28x2, .f32⟩
  | .hbm, ⟨15, _⟩ => ⟨S28x28x28x28x2, .f32⟩
  | .hbm, ⟨16, _⟩ => ⟨S28x28x28x28x2, .f32⟩
  | .hbm, ⟨17, _⟩ => ⟨S28x28x28x28x2, .f32⟩
  | .hbm, ⟨18, _⟩ => ⟨S_, .f32⟩
  | .hbm, ⟨19, _⟩ => ⟨S28x28x28x28, .f32⟩
  | .hbm, ⟨20, _⟩ => ⟨S_, .f32⟩
  | .hbm, ⟨21, _⟩ => ⟨S28x28x28x28, .f32⟩
  | .hbm, ⟨22, _⟩ => ⟨S28x28x28x28, .i1⟩
  | .hbm, ⟨23, _⟩ => ⟨S28x28x28x28, .f32⟩
  | .hbm, ⟨24, _⟩ => ⟨S28x28, .f32⟩
  | .hbm, ⟨25, _⟩ => ⟨S_, .f32⟩
  | .hbm, ⟨26, _⟩ => ⟨S28x28, .f32⟩
  | .hbm, ⟨27, _⟩ => ⟨S28x28, .f32⟩
  | .hbm, ⟨28, _⟩ => ⟨S28x28, .f32⟩
  | .hbm, ⟨29, _⟩ => ⟨S1x1x28x28, .f32⟩
  | .hbm, ⟨30, _⟩ => ⟨S28x28x28x28, .f32⟩
  | .hbm, ⟨31, _⟩ => ⟨S28x28x28x28, .f32⟩
  | .hbm, ⟨32, _⟩ => ⟨S28x28x28x28, .f32⟩
  | .hbm, ⟨33, _⟩ => ⟨S28x28x28x28, .f32⟩
  | .hbm, ⟨34, _⟩ => ⟨S784x784, .f32⟩
  | .hbm, ⟨35, _⟩ => ⟨S65536x784, .f32⟩
  | .hbm, ⟨36, _⟩ => ⟨S784x784, .f32⟩
  | .hbm, ⟨37, _⟩ => ⟨S65536x784, .f32⟩
  | .hbm, ⟨38, _⟩ => ⟨S65536x28x28, .f32⟩
  | .hbm, ⟨39, _⟩ => ⟨S1x28x28, .f32⟩
  | .hbm, ⟨40, _⟩ => ⟨S65536x28x28, .f32⟩
  | .hbm, ⟨41, _⟩ => ⟨S65536x28x28, .f32⟩
  | _, _ => ⟨S65536x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  bcast_S28_S28x28_0 : S28.BroadcastsInDim S28x28 (![0] : Fin 1 → Fin S28x28.rank)
  bcast_S28_S28x28_1 : S28.BroadcastsInDim S28x28 (![1] : Fin 1 → Fin S28x28.rank)
  bcast_S28x28_S28x28x1_0_1 : S28x28.BroadcastsInDim S28x28x1 (![0, 1] : Fin 2 → Fin S28x28x1.rank)
  concatenates_S28x28x1_S28x28x1_S28x28x2_d2 : Shape.Concatenates [S28x28x1, S28x28x1] S28x28x2 2
  bcast_S28x28x2_S28x28x1x1x2_0_1_4 : S28x28x2.BroadcastsInDim S28x28x1x1x2 (![0, 1, 4] : Fin 3 → Fin S28x28x1x1x2.rank)
  bcast_S28x28x2_S1x1x28x28x2_2_3_4 : S28x28x2.BroadcastsInDim S1x1x28x28x2 (![2, 3, 4] : Fin 3 → Fin S1x1x28x28x2.rank)
  bcast_S28x28x1x1x2_S28x28x28x28x2_0_1_2_3_4 : S28x28x1x1x2.BroadcastsInDim S28x28x28x28x2 (![0, 1, 2, 3, 4] : Fin 5 → Fin S28x28x28x28x2.rank)
  bcast_S1x1x28x28x2_S28x28x28x28x2_0_1_2_3_4 : S1x1x28x28x2.BroadcastsInDim S28x28x28x28x2 (![0, 1, 2, 3, 4] : Fin 5 → Fin S28x28x28x28x2.rank)
  reducesTo_S28x28x28x28x2_S28x28x28x28_d4 : S28x28x28x28x2.ReducesTo [4] S28x28x28x28
  h_S_ : 0 < S_.numel
  bcast_S_S28x28x28x28 : S_.BroadcastsInDim S28x28x28x28 (![] : Fin 0 → Fin S28x28x28x28.rank)
  bcast_S_S28x28 : S_.BroadcastsInDim S28x28 (![] : Fin 0 → Fin S28x28.rank)
  bcast_S28x28_S1x1x28x28_2_3 : S28x28.BroadcastsInDim S1x1x28x28 (![2, 3] : Fin 2 → Fin S1x1x28x28.rank)
  bcast_S1x1x28x28_S28x28x28x28_0_1_2_3 : S1x1x28x28.BroadcastsInDim S28x28x28x28 (![0, 1, 2, 3] : Fin 4 → Fin S28x28x28x28.rank)
  shapeCasts_S28x28x28x28_S784x784 : S28x28x28x28.ShapeCasts S784x784
  shapeCasts_S65536x28x28_S65536x784 : S65536x28x28.ShapeCasts S65536x784
  transposes_S784x784_S784x784_1_0 : S784x784.Transposes [1, 0] S784x784
  shapeCasts_S65536x784_S65536x28x28 : S65536x784.ShapeCasts S65536x28x28
  bcast_S28x28_S1x28x28_1_2 : S28x28.BroadcastsInDim S1x28x28 (![1, 2] : Fin 2 → Fin S1x28x28.rank)
  bcast_S1x28x28_S65536x28x28_0_1_2 : S1x28x28.BroadcastsInDim S65536x28x28 (![0, 1, 2] : Fin 3 → Fin S65536x28x28.rank)
  dot_S65536x784_S784x784_S65536x784_1_0_0_1_n_n_wf : DotDims.WF S65536x784 S784x784 S65536x784 [1] [0] [0] [1] [] []

variable [Facts₀]

def dot_S65536x784_S784x784_S65536x784_1_0_0_1_n_n : DotDims S65536x784 S784x784 S65536x784 where
  lhsContracting := [1]
  rhsContracting := [0]
  lhsNonContracting := [0]
  rhsNonContracting := [1]
  lhsBatch := []
  rhsBatch := []
  wf := dot_S65536x784_S784x784_S65536x784_1_0_0_1_n_n_wf

class Facts : Prop extends Facts₀ where

variable [Facts]
-- ==== Proof.KernelBody.lean ====
/-
  What one grid point of the kernel computes, read entry by entry over the extended reals.

  The body multiplies its 2048 × 784 block of rows by the whole 784 × 784 matrix on the matrix unit, accumulating
  into zero, and scales column `q` of the product by entry `q` of a one-row array broadcast down the rows. Over the
  extended reals the change of float format in front of the matrix unit is the identity and the accumulation into
  zero is the plain sum over the contracted index, so entry (p, q) of what is stored is
  `(∑ k, x (p, k) · w (k, q)) · s (0, q)`.
-/
import proofs.«101391_j89807766159735_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The row coordinate of the left operand's index is the output's row. -/
theorem lhs_row (i : S2048x784.Idx) (q : dot_S2048x784_S784x784_S2048x784_1_0_0_1_n_n.contr.Idx) :
    (dot_S2048x784_S784x784_S2048x784_1_0_0_1_n_n.lhsIdx i q 0).val = (i 0).val := by
  unfold DotDims.lhsIdx
  rw [dif_neg (show ¬(0 : Fin S2048x784.rank) ∈ dot_S2048x784_S784x784_S2048x784_1_0_0_1_n_n.lhsBatch by decide),
    dif_pos (show (0 : Fin S2048x784.rank) ∈ dot_S2048x784_S784x784_S2048x784_1_0_0_1_n_n.lhsNonContracting by decide)]
  rfl

/-- The column coordinate of the right operand's index is the output's column. -/
theorem rhs_col (i : S2048x784.Idx) (q : dot_S2048x784_S784x784_S2048x784_1_0_0_1_n_n.contr.Idx) :
    (dot_S2048x784_S784x784_S2048x784_1_0_0_1_n_n.rhsIdx i q 1).val = (i 1).val := by
  unfold DotDims.rhsIdx
  rw [dif_neg (show ¬(1 : Fin S784x784.rank) ∈ dot_S2048x784_S784x784_S2048x784_1_0_0_1_n_n.rhsBatch by decide),
    dif_pos (show (1 : Fin S784x784.rank) ∈ dot_S2048x784_S784x784_S2048x784_1_0_0_1_n_n.rhsNonContracting by decide)]
  rfl

/-- The matrix unit's product into a zero accumulator, at (p, q): the sum over the 784 contracted positions of the
    left operand's row `p` against the right operand's column `q`. -/
theorem matmul_entry (a : FVec Ideal S2048x784 .bf16) (b : FVec Ideal S784x784 .bf16) (p : Fin 2048) (q : Fin 784) :
    matmul dot_S2048x784_S784x784_S2048x784_1_0_0_1_n_n none a b (constant S2048x784 .f32 0x00000000#32) (ix2 p q)
      = ∑ k : Fin 784, a (ix2 p k) * b (ix2 k q) := by
  simp only [matmul]
  rw [Ideal.matmul_constant_zero_apply, ← Equiv.sum_comp (contrEquiv1 dot_S2048x784_S784x784_S2048x784_1_0_0_1_n_n 784 rfl rfl).symm]
  refine Finset.sum_congr rfl fun k _ => ?_
  have hk := contrEquiv1_symm_val dot_S2048x784_S784x784_S2048x784_1_0_0_1_n_n 784 rfl rfl k
  have el : dot_S2048x784_S784x784_S2048x784_1_0_0_1_n_n.lhsIdx (ix2 p q) ((contrEquiv1 dot_S2048x784_S784x784_S2048x784_1_0_0_1_n_n 784 rfl rfl).symm k) = ix2 p k := funext fun d => Fin.ext (by
    match d with
    | ⟨0, _⟩ => exact lhs_row _ _
    | ⟨1, _⟩ => exact (dot_S2048x784_S784x784_S2048x784_1_0_0_1_n_n.lhsIdx_val_of_single rfl _ _).trans hk)
  have er : dot_S2048x784_S784x784_S2048x784_1_0_0_1_n_n.rhsIdx (ix2 p q) ((contrEquiv1 dot_S2048x784_S784x784_S2048x784_1_0_0_1_n_n 784 rfl rfl).symm k) = ix2 k q := funext fun d => Fin.ext (by
    match d with
    | ⟨0, _⟩ => exact (dot_S2048x784_S784x784_S2048x784_1_0_0_1_n_n.rhsIdx_val_of_single rfl _ _).trans hk
    | ⟨1, _⟩ => exact rhs_col _ _)
  rw [el, er]

/-- Entry (p, q) of the block the body stores, from the three blocks it loads. -/
theorem pay_entry (x0 : Vec Ideal S2048x784 .f32) (x1 : Vec Ideal S784x784 .bf16) (x2 : Vec Ideal S1x784 .f32)
    (p : Fin 2048) (q : Fin 784) :
    k0_pay1 x0 x1 x2 (ix2 p q) = (∑ k : Fin 784, x0 (ix2 p k) * x1 (ix2 k q)) * x2 (ix2 (0 : Fin 1) q) := by
  unfold k0_pay1
  simp only [shapeCast_self]
  refine (mulf_apply _ _ _).trans ?_
  rw [matmul_entry, broadcastTo_1b_ab_apply]
  rfl

end Cert.KernelIdeal.Body

end
-- ==== Proof.Spec.lean ====
/-
  The function both programs compute, stated once over the extended reals.

  With the batch of 28 × 28 images flattened to rows of length 784, the result is a row-by-matrix product followed
  by a per-column scale: entry (r, c) is

      ( ∑ k < 784, x (r, k) · w (k, c) ) · s (0, c),

  where `x` is the flattened batch, `w` the 784 × 784 matrix and `s` a one-row array of scales. Nothing is assumed
  of the three arrays: the sum is a sum in the commutative monoid of extended reals, so its value does not depend
  on the order in which either program adds the products, and no step of the comparison distributes a product over
  a sum.
-/
import Idealize.ShloMosaic.PureOps.Ideal
import Idealize.ShloMosaic.Lib.ValueIdx

noncomputable section

namespace Cert.ScaledProduct

open Idealize.ShloMosaic Idealize.ShloMosaic.ValueIdx

/-- Entry (r, c): row `r` of `x` against column `c` of `w`, times the scale of column `c`. -/
def entry (x : (⟨2, ![65536, 784]⟩ : Shape).Idx → EReal) (w : (⟨2, ![784, 784]⟩ : Shape).Idx → EReal)
    (s : (⟨2, ![1, 784]⟩ : Shape).Idx → EReal) (r : Fin 65536) (c : Fin 784) : EReal :=
  (∑ k : Fin 784, x (ix2 r k) * w (ix2 k c)) * s (ix2 (0 : Fin 1) c)

/-- The whole 65536 × 784 array of those entries. -/
def flat (x : (⟨2, ![65536, 784]⟩ : Shape).Idx → EReal) (w : (⟨2, ![784, 784]⟩ : Shape).Idx → EReal)
    (s : (⟨2, ![1, 784]⟩ : Shape).Idx → EReal) : (⟨2, ![65536, 784]⟩ : Shape).Idx → EReal :=
  fun j => entry x w s ⟨(j 0).val, idx2_lt0 j⟩ ⟨(j 1).val, idx2_lt1 j⟩

theorem flat_ix2 (x : (⟨2, ![65536, 784]⟩ : Shape).Idx → EReal) (w : (⟨2, ![784, 784]⟩ : Shape).Idx → EReal)
    (s : (⟨2, ![1, 784]⟩ : Shape).Idx → EReal) (r : Fin 65536) (c : Fin 784) :
    flat x w s (ix2 r c) = entry x w s r c := rfl

/-- The array at an index whose two coordinates are known as numbers. -/
theorem flat_eq_entry (x : (⟨2, ![65536, 784]⟩ : Shape).Idx → EReal) (w : (⟨2, ![784, 784]⟩ : Shape).Idx → EReal)
    (s : (⟨2, ![1, 784]⟩ : Shape).Idx → EReal) (i : (⟨2, ![65536, 784]⟩ : Shape).Idx) (r : Fin 65536) (c : Fin 784)
    (h0 : (i 0).val = r.val) (h1 : (i 1).val = c.val) : flat x w s i = entry x w s r c := by
  have hi : i = ix2 r c := funext fun a => by
    match a with
    | ⟨0, _⟩ => exact Fin.ext h0
    | ⟨1, _⟩ => exact Fin.ext h1
  subst hi
  rfl

/-- The result as a batch of 28 × 28 images: the batch `x` flattened to rows of 784, the 28 × 28 scales `s`
    flattened to one row of 784, their scaled product with `w`, and each row of the product cut back into a
    28 × 28 image. Flattening and cutting are row-major re-readings of the same entries. -/
def images (x : (⟨3, ![65536, 28, 28]⟩ : Shape).Idx → EReal) (w : (⟨2, ![784, 784]⟩ : Shape).Idx → EReal)
    (s : (⟨2, ![28, 28]⟩ : Shape).Idx → EReal) : (⟨3, ![65536, 28, 28]⟩ : Shape).Idx → EReal :=
  shapeCast ⟨3, ![65536, 28, 28]⟩
    (flat (shapeCast ⟨2, ![65536, 784]⟩ x (by decide)) w (shapeCast ⟨2, ![1, 784]⟩ s (by decide))) (by decide)

end Cert.ScaledProduct

end
-- ==== Proof.KernelBlocks.lean ====
/-
  From the blocks the grid points write back to the whole output array of the kernel's region.

  The grid has 32 points. Point `t` is handed rows `2048·t … 2048·t + 2047` of the flattened batch, the whole
  784 × 784 matrix and the whole one-row array of scales, and writes back rows `2048·t … 2048·t + 2047` of the
  output. Each written block is the corresponding block of rows of one function of the three arrays as the
  region finds them — the scaled product — and the 32 blocks of rows tile the 65536 rows, so the output array
  ends holding that function.
-/
import proofs.«101391_j89807766159735_1_alg».proof.Proof.Gen.KernelIdeal.Frame
import proofs.«101391_j89807766159735_1_alg».proof.Proof.KernelBody
import proofs.«101391_j89807766159735_1_alg».proof.Proof.Spec
import Idealize.ShloMosaic.Lib.Pipeline.Value
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The four index maps over the grid: the batch rows and the output rows move with the point, the matrix and the
    scales stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The output array of the region as one function of the three arrays the region finds. -/
abbrev arr (c : Dev nD) : S65536x784.Idx → EReal :=
  Cert.ScaledProduct.flat (V m c main_v30) (V m c main_v28) (V m c main_v29)

/-- An entry of a stored block is an entry of the scaled product, once the three loaded blocks are known as parts of
    three arrays: row `p` of the first as row `r` of `X`, the other two as `W` and `S` themselves. -/
theorem pay_is_entry (x0 : Vec Ideal S2048x784 .f32) (x1 : Vec Ideal S784x784 .bf16) (x2 : Vec Ideal S1x784 .f32)
    (X : S65536x784.Idx → EReal) (W : S784x784.Idx → EReal) (S : S1x784.Idx → EReal)
    (p : Fin 2048) (q : Fin 784) (r : Fin 65536)
    (h0 : ∀ k : Fin 784, x0 (ix2 p k) = X (ix2 r k)) (h1 : ∀ k : Fin 784, x1 (ix2 k q) = W (ix2 k q))
    (h2 : x2 (ix2 (0 : Fin 1) q) = S (ix2 (0 : Fin 1) q)) :
    k0_pay1 x0 x1 x2 (ix2 p q) = Cert.ScaledProduct.entry X W S r q := by
  rw [Cert.KernelIdeal.Body.pay_entry]
  unfold Cert.ScaledProduct.entry
  rw [h2]
  exact congrArg (· * S (ix2 (0 : Fin 1) q)) (Finset.sum_congr rfl fun k _ => by rw [h0 k, h1 k])

/-- The batch window's block at point `t`: row `y 0` of the block is row `2048·t + y 0` of the flattened batch. -/
theorem iblk0_apply (c : Dev nD) (t : Fin cfg0.N) (y : S2048x784.Idx) (i : S65536x784.Idx)
    (h0 : (i 0).val = 2048 * t.val + (y 0).val) (h1 : (i 1).val = (y 1).val) :
    (iblk m c 0 t : Vec Ideal S2048x784 .f32) y = (V m c main_v30 : S65536x784.Idx → EReal) i := by
  obtain ⟨e0, e1, -⟩ := idx_facts t
  unfold iblk
  rw [View.read_apply]
  show V m c main_v30 _ = V m c main_v30 _
  refine congrArg (V m c main_v30 : S65536x784.Idx → EReal) ?_
  funext a
  apply Fin.ext
  match a with
  | ⟨0, _⟩ => show win0_0.index t 0 * 2048 + 1 * (y 0).val = (i 0).val; rw [e0, h0]; omega
  | ⟨1, _⟩ => show win0_0.index t 1 * 784 + 1 * (y 1).val = (i 1).val; rw [e1, h1]; omega

/-- The matrix window's block at every point is the whole matrix. -/
theorem iblk1_apply (c : Dev nD) (t : Fin cfg0.N) (y : S784x784.Idx) :
    (iblk m c 1 t : Vec Ideal S784x784 .bf16) y = (V m c main_v28 : S784x784.Idx → EReal) y := by
  obtain ⟨-, -, e2, e3, -⟩ := idx_facts t
  unfold iblk
  rw [View.read_apply]
  show V m c main_v28 _ = V m c main_v28 _
  refine congrArg (V m c main_v28 : S784x784.Idx → EReal) ?_
  funext a
  apply Fin.ext
  match a with
  | ⟨0, _⟩ => show win0_1.index t 0 * 784 + 1 * (y 0).val = (y 0).val; rw [e2]; omega
  | ⟨1, _⟩ => show win0_1.index t 1 * 784 + 1 * (y 1).val = (y 1).val; rw [e3]; omega

/-- The scales window's block at every point is the whole one-row array. -/
theorem iblk2_apply (c : Dev nD) (t : Fin cfg0.N) (y : S1x784.Idx) :
    (iblk m c 2 t : Vec Ideal S1x784 .f32) y = (V m c main_v29 : S1x784.Idx → EReal) y := by
  obtain ⟨-, -, -, -, e4, e5, -⟩ := idx_facts t
  unfold iblk
  rw [View.read_apply]
  show V m c main_v29 _ = V m c main_v29 _
  refine congrArg (V m c main_v29 : S1x784.Idx → EReal) ?_
  funext a
  apply Fin.ext
  match a with
  | ⟨0, _⟩ => show win0_2.index t 0 * 1 + 1 * (y 0).val = (y 0).val; rw [e4]; omega
  | ⟨1, _⟩ => show win0_2.index t 1 * 784 + 1 * (y 1).val = (y 1).val; rw [e5]; omega

/-- What point `t` writes back is block `t` of the scaled product of the arrays the region finds: entry (p, q) of
    the stored block is entry (2048·t + p, q) of the product. -/
theorem flushed_eq (c : Dev nD) (t : Fin cfg0.N) :
    (dats m 0 c).flushed 3 t = ((cfg0.win 3).blk t).view.read (Elt Ideal) (arr m c) := by
  show (cfg0.win 3).cut (grid0.coords t) ((dats m 0 c).after 3 t) = _
  rw [after0_3]
  unfold out0_3
  rw [View.canon_unit_zero hz]
  simp only [View.ld_unit_zero (S := S2048x784) hz, View.ld_unit_zero (S := S784x784) hz, View.ld_unit_zero (S := S1x784) hz]
  funext j
  show k0_pay1 (iblk m c 0 t) (iblk m c 1 t) (iblk m c 2 t) (j : S2048x784.Idx) = arr m c (((cfg0.win 3).blk t).view.emb j)
  obtain ⟨p, q, rfl⟩ : ∃ (p : Fin 2048) (q : Fin 784), (j : S2048x784.Idx) = ix2 p q := ⟨j 0, j 1, eq_ix2 j⟩
  have ht : t.val < 32 := lt_of_lt_of_eq t.isLt N_0
  obtain ⟨-, -, -, -, -, -, e6, e7⟩ := idx_facts t
  refine (pay_is_entry (iblk m c 0 t) (iblk m c 1 t) (iblk m c 2 t) (V m c main_v30) (V m c main_v28) (V m c main_v29)
    p q ⟨2048 * t.val + p.val, by have := p.isLt; omega⟩ ?_ ?_ ?_).trans ?_
  · intro k
    exact iblk0_apply m c t (ix2 p k) (ix2 (⟨2048 * t.val + p.val, by have := p.isLt; omega⟩ : Fin 65536) k) rfl rfl
  · intro k
    exact iblk1_apply m c t (ix2 k q)
  · exact iblk2_apply m c t (ix2 (0 : Fin 1) q)
  · refine (Cert.ScaledProduct.flat_eq_entry _ _ _ (((cfg0.win 3).blk t).view.emb (ix2 p q)) _ q ?_ ?_).symm
    · show win0_3.index t 0 * 2048 + 1 * p.val = 2048 * t.val + p.val
      rw [e6]; omega
    · show win0_3.index t 1 * 784 + 1 * q.val = q.val
      rw [e7]; omega

/-- An index of the output array is in point `t`'s block iff each coordinate is in the block's range on its axis. -/
theorem mem_blk (t : Fin cfg0.N) (i : S65536x784.Idx) :
    i ∈ ((cfg0.win 3).blk t).view.set ↔ ∀ a : Fin 2, win0_3.index t a * S2048x784.size a ≤ (i a).val ∧ (i a).val < win0_3.index t a * S2048x784.size a + S2048x784.size a := by
  show i ∈ ((View.whole main_v31).slice (win0_3.rect t)).set ↔ _
  rw [View.set_slice_whole, Rect.mem_set_unit]
  exact Iff.rfl

/-- Every block index of the output is some point's: block `b` of rows is point `b`'s. -/
theorem idx_onto : ∀ b : Fin 32, ∃ t : Fin cfg0.N, win0_3.index t = ![b.val, 0] :=
  (by decide +kernel : ∀ b : Fin 32, ∃ t : Fin grid0.N, win0_3.index t = ![b.val, 0])

/-- The 32 blocks of 2048 rows tile the 65536 rows: row `r` is in the block of point `r / 2048`. -/
theorem cover (i : S65536x784.Idx) :
    ∃ t : Fin cfg0.N, (cfg0.win 3).flush t = true ∧ i ∈ ((cfg0.win 3).blk t).view.set := by
  have hi0 : (i 0).val < 65536 := (i 0).isLt
  have hi1 : (i 1).val < 784 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 784 ≤ (i 1).val ∧ (i 1).val < win0_3.index t (1 : Fin 2) * 784 + 784; omega

/-- So the output array of the region ends holding the scaled product of the arrays the region finds. -/
theorem final (c : Dev nD) : (dats m 0 c).arrAt 3 cfg0.N = arr m c :=
  (dats m 0 c).arrAt_eq_of_cover 3 (arr m c) (fun t _ => flushed_eq m c t) cover

end Cert.KernelIdeal.Blocks

end
-- ==== Proof.KernelRun.lean ====
/-
  The kernel's whole program, read as a value.

  Before the region the program flattens the batch to 65536 rows of 784 and the 28 × 28 scales to one row of 784, and
  builds the transposed 784 × 784 matrix; the region leaves the scaled product of those three in its output array;
  after the region the program cuts each row of 784 back into a 28 × 28 image. So the program's result is the
  scaled product of the batch, the matrix as the region finds it, and the scales, as a batch of images.
-/
import proofs.«101391_j89807766159735_1_alg».proof.Proof.Gen.KernelIdeal.Frame
import proofs.«101391_j89807766159735_1_alg».proof.Proof.KernelBlocks
import proofs.«101391_j89807766159735_1_alg».proof.Proof.Spec
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The region finds the batch flattened to rows of 784. -/
theorem entry_batch (c : Dev nD) :
    (V m c main_v30 : S65536x784.Idx → EReal)
      = shapeCast S65536x784 (m ((c : Thread nD τ).loc main_arg0)) shapeCasts_S65536x28x28_S65536x784 := by
  dsimp only [V, V0]
  simp only [hostOps0, hostOps0_1, hostOps0_2, List.flatten_cons, List.flatten_nil, List.append_nil, List.cons_append, List.nil_append]
  after_results
  rfl

/-- The region finds the scales flattened to one row of 784. -/
theorem entry_scales (c : Dev nD) :
    (V m c main_v29 : S1x784.Idx → EReal)
      = shapeCast S1x784 (m ((c : Thread nD τ).loc main_arg2)) shapeCasts_S28x28_S1x784 := by
  dsimp only [V, V0]
  simp only [hostOps0, hostOps0_1, hostOps0_2, List.flatten_cons, List.flatten_nil, List.append_nil, List.cons_append, List.nil_append]
  after_results
  rfl

/-- The program's result buffer after the lines that follow the region. -/
theorem tail_eq (c : Dev nD) :
    Pipeline.afterTail₀ cfgs (dats m) 0 (V0 m) [hostOps1] c main_v32
      = Cert.ScaledProduct.images (m ((c : Thread nD τ).loc main_arg0)) (V m c main_v28) (m ((c : Thread nD τ).loc main_arg2)) := by
  unfold Pipeline.afterTail₀
  show StableHlo.after hostOps1 _ (Proc.devRef .tc main_v32) = _
  after_results
  have hw : Pipeline.withArrays (cfgs 0).spec c (V0 m c) (fun w => (dats m 0 c).arrAt w (cfgs 0).N) (Proc.devRef .tc main_v31)
      = Cert.KernelIdeal.Blocks.arr m c :=
    (Pipeline.withArrays_arr spec0 launch0.win.arr_inj c _ _ 3).trans (Cert.KernelIdeal.Blocks.final m c)
  have e : Cert.KernelIdeal.Blocks.arr m c
      = Cert.ScaledProduct.flat (shapeCast S65536x784 (m ((c : Thread nD τ).loc main_arg0)) shapeCasts_S65536x28x28_S65536x784)
          (V m c main_v28) (shapeCast S1x784 (m ((c : Thread nD τ).loc main_arg2)) shapeCasts_S28x28_S1x784) := by
    show Cert.ScaledProduct.flat (V m c main_v30) (V m c main_v28) (V m c main_v29) = _
    rw [entry_batch m c, entry_scales m c]
  rw [hw, e]
  rfl

/-- The kernel's program runs, ends with the scaled product of the batch, the matrix its region finds and the scales
    in its result buffer, and leaves its four arguments as launched. -/
theorem run : θ_run defs (onTc (τ := τ) (main (F := Ideal))) ⟨m, fun _ => 0, ρ⟩ fun r => ∀ c : Dev nD,
      r.2.mem ((c.tc : Thread nD τ).loc main_v32)
        = Cert.ScaledProduct.images (m ((c.tc : Thread nD τ).loc main_arg0)) (V m c main_v28) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v32 (Pipeline.mem_restRefs_of main_v32 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference's result is the scaled product, cut into images.

  The reference flattens the batch to rows of 784, multiplies by the transposed 784 × 784 matrix with one
  contraction over the 784 positions, cuts the rows back into 28 × 28 images and multiplies every image entry by
  the 28 × 28 scales. Entry (b, u, v) is therefore `(∑ k, x (b, k) · w (k, 28·u + v)) · s (u, v)`, which is entry
  (b, 28·u + v) of the scaled product with the scales read as one row of 784: position `28·u + v` of the flattened
  scales is `s (u, v)`.
-/
import proofs.«101391_j89807766159735_1_alg».proof.Proof.Gen.ReferenceIdeal.Read
import proofs.«101391_j89807766159735_1_alg».proof.Proof.Spec
import Idealize.ShloMosaic.Lib.ValueIdx
import Idealize.ShloMosaic.Lib.Pipeline.Value

noncomputable section

namespace Cert.ReferenceIdeal.AsProduct

open Cert.ReferenceIdeal Cert.ReferenceIdeal.Read Idealize.ShloMosaic Idealize.ShloMosaic.ValueIdx

/-- The reference's last stage, as a function of its four arguments, is the scaled product of the batch with the
    transposed matrix the reference builds from the second and fourth arguments, and the third as scales. -/
theorem result_eq (x0 : (⟨S65536x28x28, .f32⟩ : BufTy).Contents (Elt Ideal)) (x1 : (⟨S28x28x2, .f32⟩ : BufTy).Contents (Elt Ideal))
    (x2 x3 : (⟨S28x28, .f32⟩ : BufTy).Contents (Elt Ideal)) :
    val_main_v33 (F := Ideal) x0 x1 x2 x3
      = Cert.ScaledProduct.images x0 (val_main_v28 (F := Ideal) x1 x3) x2 := by
  funext i
  have h0 : (i 0).val < 65536 := (i 0).isLt
  have h1 : (i 1).val < 28 := (i 1).isLt
  have h2 : (i 2).val < 28 := (i 2).isLt
  rw [val_main_v33_apply, val_main_v30_apply, val_main_v29_apply, val_main_v32_apply, val_main_v31_apply]
  unfold Cert.ScaledProduct.images
  rw [shapeCast_apply _ _ i (idx_main_v30 i) (by
    rewrite [Shape.rowMajor_val_two, Shape.rowMajor_val_three]
    show (((i 0).val * 28 + (i 1).val) * 28 + (i 2).val) / 784 * 784 + (((i 0).val * 28 + (i 1).val) * 28 + (i 2).val) % 784 = ((i 0).val * 28 + (i 1).val) * 28 + (i 2).val
    omega)]
  have hr : (((i 0).val * 28 + (i 1).val) * 28 + (i 2).val) / 784 < 65536 := by omega
  have hq : (((i 0).val * 28 + (i 1).val) * 28 + (i 2).val) % 784 < 784 := by omega
  rw [Cert.ScaledProduct.flat_eq_entry _ _ _ (idx_main_v30 i) ⟨_, hr⟩ ⟨_, hq⟩ rfl rfl]
  unfold Cert.ScaledProduct.entry
  rw [Ideal.mulf_def]
  refine congrArg₂ (· * ·) (Finset.sum_congr rfl fun k _ => ?_) ?_
  · have el : lidx_main_v29 (idx_main_v30 i) k = ix2 (⟨_, hr⟩ : Fin 65536) k := funext fun a => by
      match a with
      | ⟨0, _⟩ => rfl
      | ⟨1, _⟩ => rfl
    have er : ridx_main_v29 (idx_main_v30 i) k = ix2 k (⟨_, hq⟩ : Fin 784) := funext fun a => by
      match a with
      | ⟨0, _⟩ => rfl
      | ⟨1, _⟩ => rfl
    rw [el, er]
    rfl
  · refine (shapeCast_apply x2 _ (ix2 (0 : Fin 1) (⟨_, hq⟩ : Fin 784)) (idx_main_v31 (idx_main_v32 i)) ?_).symm
    rewrite [Shape.rowMajor_val_two, Shape.rowMajor_val_two]
    show (i 1).val * 28 + (i 2).val = 0 * 784 + (((i 0).val * 28 + (i 1).val) * 28 + (i 2).val) % 784
    omega

end Cert.ReferenceIdeal.AsProduct

end
-- ==== Proof.SharedMatrix.lean ====
/-
  Both programs build the same 784 × 784 matrix.

  From the positions and the decay rates each program computes, by the same operations in the same order, the
  28 × 28 × 28 × 28 array `exp (−relu(−ep) · d²) · [d² < 9]` of pairwise weights, reads it as a 784 × 784 matrix and
  transposes it. The kernel's program then changes the float format of the transposed matrix, which over the
  extended reals is the identity. So the matrix the kernel's region finds is the one the reference contracts
  with, as terms of the two arguments; nothing about its entries is used.
-/
import proofs.«101391_j89807766159735_1_alg».proof.Proof.Gen.KernelIdeal.Frame
import proofs.«101391_j89807766159735_1_alg».proof.Proof.Gen.ReferenceIdeal.Read
import Idealize.ShloMosaic.Lib.StableHlo.Run

noncomputable section

namespace Cert.SharedMatrix

open Idealize.ShloMosaic Idealize.ShloMosaic.TcCoe Idealize.SL.Sem Idealize.ShloMosaic.StableHlo

/-- The matrix the kernel's region finds is the reference's transposed matrix of the same two arguments. -/
theorem kernel_matrix (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v28 : Cert.KernelIdeal.S784x784.Idx → EReal)
      = Cert.ReferenceIdeal.Read.val_main_v28 (F := Ideal)
          (m ((c : Thread Cert.KernelIdeal.nD Cert.KernelIdeal.τ).loc Cert.KernelIdeal.main_arg1)) (m ((c : Thread Cert.KernelIdeal.nD Cert.KernelIdeal.τ).loc Cert.KernelIdeal.main_arg3)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rfl

end Cert.SharedMatrix

end
-- ==== Proof.lean ====
/-
  A batch of 65536 images of 28 × 28 entries is multiplied, image by image, by a 784 × 784 matrix of pairwise
  weights and then scaled entry by entry by a 28 × 28 array: with each image flattened to a row `x (b, ·)` of 784
  entries, the result at image `b`, entry `(u, v)` is

      ( ∑ k < 784, x (b, k) · Wt (k, 28·u + v) ) · weight (u, v),

  where `Wt` is the transpose of the matrix `exp (−relu(−ep) · d²) · [d² < 9]` built from the positions and the
  decay rates. The kernel computes this in 32 blocks of 2048 rows on the matrix unit, with the scales as one row
  of 784 broadcast down the rows; the reference computes it with one contraction over the whole batch and scales
  the images afterwards.

  Over the extended reals the two agree for every value of the four arguments. Both programs build `Wt` by the
  same operations of the same arguments (the kernel's change of float format is the identity there), so it enters
  as one term whose entries are never inspected; both sums run over the same 784 products, and a finite sum of
  extended reals does not depend on its order; and the scale multiplies the finished sum on both sides, so
  nothing is distributed over a sum. The precondition is therefore not used by the value claim. The kernel's
  idealization rewrote no operation, so the preservation claim is empty.
-/
import proofs.«101391_j89807766159735_1_alg».proof.Defs
import proofs.«101391_j89807766159735_1_alg».proof.Proof.Gen.Kernel
import proofs.«101391_j89807766159735_1_alg».proof.Proof.Gen.Kernel.Skeleton
import proofs.«101391_j89807766159735_1_alg».proof.Proof.Gen.Kernel.Launch
import proofs.«101391_j89807766159735_1_alg».proof.Proof.Gen.Kernel.Points
import proofs.«101391_j89807766159735_1_alg».proof.Proof.Gen.Kernel.Frame
import proofs.«101391_j89807766159735_1_alg».proof.Proof.Gen.KernelIdeal
import proofs.«101391_j89807766159735_1_alg».proof.Proof.Gen.KernelIdeal.Skeleton
import proofs.«101391_j89807766159735_1_alg».proof.Proof.Gen.KernelIdeal.Launch
import proofs.«101391_j89807766159735_1_alg».proof.Proof.Gen.KernelIdeal.Points
import proofs.«101391_j89807766159735_1_alg».proof.Proof.Gen.KernelIdeal.Frame
import proofs.«101391_j89807766159735_1_alg».proof.Proof.Gen.ReferenceIdeal
import proofs.«101391_j89807766159735_1_alg».proof.Proof.Gen.ReferenceIdeal.Run
import proofs.«101391_j89807766159735_1_alg».proof.Proof.Gen.ReferenceIdeal.Read
import proofs.«101391_j89807766159735_1_alg».proof.Proof.Gen.Pre_finite_inputs
import proofs.«101391_j89807766159735_1_alg».proof.Proof.KernelRun
import proofs.«101391_j89807766159735_1_alg».proof.Proof.RefValue
import proofs.«101391_j89807766159735_1_alg».proof.Proof.SharedMatrix
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the scaled product of the batch, the shared transposed matrix and the scales, cut into
    images: the kernel's run states it with the matrix as its region finds it, the reference's with the matrix as
    its own operations build it, and the two matrices are one term of the second and fourth arguments. -/
theorem algebraic : Cert.algebraic_KernelIdeal_ReferenceIdeal := by
  intro m ρ m' ρ' _ hagree
  refine ⟨fun c => Cert.ScaledProduct.images (m ((c.tc : Thread Cert.KernelIdeal.nD Cert.KernelIdeal.τ).loc Cert.KernelIdeal.main_arg0))
      (Cert.KernelIdeal.Gen.V m c Cert.KernelIdeal.main_v28) (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2,
    Cert.ReferenceIdeal.AsProduct.result_eq]
  show _ = Cert.ScaledProduct.images (m ((c.tc : Thread Cert.KernelIdeal.nD Cert.KernelIdeal.τ).loc Cert.KernelIdeal.main_arg0))
    (Cert.KernelIdeal.Gen.V m c Cert.KernelIdeal.main_v28) (m ((c.tc : Thread Cert.KernelIdeal.nD Cert.KernelIdeal.τ).loc Cert.KernelIdeal.main_arg2))
  rw [Cert.SharedMatrix.kernel_matrix]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
